-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S16x4096 : Shape := ⟨2, ![16, 4096]⟩
abbrev S4096x16 : Shape := ⟨2, ![4096, 16]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S16x4096 : S_.BroadcastsInDim S16x4096 (![] : Fin 0 → Fin S16x4096.rank)
  reducesTo_S16x4096_S_d0_1 : S16x4096.ReducesTo [0, 1] S_
  bcast_S_S4096x16 : S_.BroadcastsInDim S4096x16 (![] : Fin 0 → Fin S4096x16.rank)
  reducesTo_S4096x16_S_d0_1 : S4096x16.ReducesTo [0, 1] S_

variable [Facts]

def fn {F : FTy → Type} [FloatOps F] (main_arg0 : FVec F S4x2048x4096 .f32) (main_arg1 : FVec F S16x4096 .f32) (main_arg2 : FVec F S4096x16 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S16x4096 .f32 := Host.absf main_arg1
  let main_cst_0 : FVec F S_ .f32 := constant S_ .f32 0x7F800000#32
  let main_v5 : FVec F S16x4096 .f32 := broadcastInDim S16x4096 ![] bcast_S_S16x4096 main_cst_0
  let main_v6 : IVec S16x4096 1 := cmpf .olt main_v4 main_v5
  let main_c_1 : IVec S_ 1 := constantI S_ 1 1#1
  let main_v7 : IVec S_ 1 := (fun x v => Host.reduce IntOp.andi x v reducesTo_S16x4096_S_d0_1 h_S_) main_v6 main_c_1
  let main_v8 : IVec S_ 1 := andi main_v3 main_v7
  let main_v9 : FVec F S4096x16 .f32 := Host.absf main_arg2
  let main_cst_2 : FVec F S_ .f32 := constant S_ .f32 0x7F800000#32
  let main_v10 : FVec F S4096x16 .f32 := broadcastInDim S4096x16 ![] bcast_S_S4096x16 main_cst_2
  let main_v11 : IVec S4096x16 1 := cmpf .olt main_v9 main_v10
  let main_c_3 : IVec S_ 1 := constantI S_ 1 1#1
  let main_v12 : IVec S_ 1 := (fun x v => Host.reduce IntOp.andi x v reducesTo_S4096x16_S_d0_1 h_S_) main_v11 main_c_3
  let main_v13 : IVec S_ 1 := andi main_v8 main_v12
  main_v13
-- ==== Kernel.lean ====
abbrev S4x2048x4096 : Shape := ⟨3, ![4, 2048, 4096]⟩
abbrev S16x4096 : Shape := ⟨2, ![16, 4096]⟩
abbrev S4096x16 : Shape := ⟨2, ![4096, 16]⟩
abbrev S8192x4096 : Shape := ⟨2, ![8192, 4096]⟩
abbrev S256x4096 : Shape := ⟨2, ![256, 4096]⟩
abbrev S256x16 : Shape := ⟨2, ![256, 16]⟩

abbrev nBuf : Space → Nat
  | .hbm => 8
  | .vmem => 6
  | .smem => 0
  | _ => 0

abbrev bufTy : (tb : Table) → Fin (tcTables nBuf tb) → BufTy
  | .hbm, ⟨0, _⟩ => ⟨S4x2048x4096, .f32⟩
  | .hbm, ⟨1, _⟩ => ⟨S16x4096, .f32⟩
  | .hbm, ⟨2, _⟩ => ⟨S4096x16, .f32⟩
  | .hbm, ⟨3, _⟩ => ⟨S8192x4096, .f32⟩
  | .hbm, ⟨4, _⟩ => ⟨S16x4096, .bf16⟩
  | .hbm, ⟨5, _⟩ => ⟨S4096x16, .bf16⟩
  | .hbm, ⟨6, _⟩ => ⟨S8192x4096, .f32⟩
  | .hbm, ⟨7, _⟩ => ⟨S4x2048x4096, .f32⟩
  | .local _ .vmem, ⟨0, _⟩ => ⟨S256x4096, .f32⟩
  | .local _ .vmem, ⟨1, _⟩ => ⟨S256x4096, .f32⟩
  | .local _ .vmem, ⟨2, _⟩ => ⟨S16x4096, .bf16⟩
  | .local _ .vmem, ⟨3, _⟩ => ⟨S4096x16, .bf16⟩
  | .local _ .vmem, ⟨4, _⟩ => ⟨S256x4096, .f32⟩
  | .local _ .vmem, ⟨5, _⟩ => ⟨S256x4096, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4096x16 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S4x2048x4096_S8192x4096 : S4x2048x4096.ShapeCasts S8192x4096
  bitsLt_bf16_f32 : FTy.bits .bf16 < FTy.bits .f32
  inb_S256x4096_S256x4096_0_0 : ∀ a, (![0, 0] : Fin 2 → Nat) a + S256x4096.size a ≤ S256x4096.size a
  h_S256x4096 : 0 < S256x4096.numel
  shapeCasts_S256x4096_S256x4096 : S256x4096.ShapeCasts S256x4096
  inb_S16x4096_S16x4096_0_0 : ∀ a, (![0, 0] : Fin 2 → Nat) a + S16x4096.size a ≤ S16x4096.size a
  h_S16x4096 : 0 < S16x4096.numel
  shapeCasts_S16x4096_S16x4096 : S16x4096.ShapeCasts S16x4096
  inb_S4096x16_S4096x16_0_0 : ∀ a, (![0, 0] : Fin 2 → Nat) a + S4096x16.size a ≤ S4096x16.size a
  h_S4096x16 : 0 < S4096x16.numel
  shapeCasts_S4096x16_S4096x16 : S4096x16.ShapeCasts S4096x16
  shapeCasts_S8192x4096_S4x2048x4096 : S8192x4096.ShapeCasts S4x2048x4096
  dot_S256x4096_S16x4096_S256x16_1_1_0_0_n_n_wf : DotDims.WF S256x4096 S16x4096 S256x16 [1] [1] [0] [0] [] []
  dot_S256x16_S4096x16_S256x4096_1_1_0_0_n_n_wf : DotDims.WF S256x16 S4096x16 S256x4096 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S8192x4096.size a
  hwx0_0 : ∀ i : grid0.Coords, EltTy.bits .f32 = 32 ∨ (Rect.block (s := S8192x4096) S256x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S16x4096.size a ≤ S16x4096.size a
  hwx0_1 : ∀ i : grid0.Coords, EltTy.bits .bf16 = 32 ∨ (Rect.block (s := S16x4096) S16x4096.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S4096x16.size a ≤ S4096x16.size a
  hwx0_2 : ∀ i : grid0.Coords, EltTy.bits .bf16 = 32 ∨ (Rect.block (s := S4096x16) S4096x16.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x4096.size a ≤ S8192x4096.size a
  hwx0_3 : ∀ i : grid0.Coords, EltTy.bits .f32 = 32 ∨ (Rect.block (s := S8192x4096) S256x4096.size (cc0_transform_3 i) (hinb0_3 i)).WholeWords (EltTy.packing .f32)

variable [Facts₀]

def dot_S256x4096_S16x4096_S256x16_1_1_0_0_n_n : DotDims S256x4096 S16x4096 S256x16 where
  lhsContracting := [1]
  rhsContracting := [1]
  lhsNonContracting := [0]
  rhsNonContracting := [0]
  lhsBatch := []
  rhsBatch := []
  wf := dot_S256x4096_S16x4096_S256x16_1_1_0_0_n_n_wf
def dot_S256x16_S4096x16_S256x4096_1_1_0_0_n_n : DotDims S256x16 S4096x16 S256x4096 where
  lhsContracting := [1]
  rhsContracting := [1]
  lhsNonContracting := [0]
  rhsNonContracting := [0]
  lhsBatch := []
  rhsBatch := []
  wf := dot_S256x16_S4096x16_S256x4096_1_1_0_0_n_n_wf

abbrev win0_0 : Pipeline.Window sig grid0 :=
  Pipeline.Window.ofSpec (Memref.whole main_v0) S256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S16x4096.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S4096x16.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S256x4096.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4x2048x4096 : Shape := ⟨3, ![4, 2048, 4096]⟩
abbrev S16x4096 : Shape := ⟨2, ![16, 4096]⟩
abbrev S4096x16 : Shape := ⟨2, ![4096, 16]⟩
abbrev S4096x4096 : Shape := ⟨2, ![4096, 4096]⟩

abbrev nBuf : Space → Nat
  | .hbm => 5
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S16x4096, .f32⟩
  | .hbm, ⟨2, _⟩ => ⟨S4096x16, .f32⟩
  | .hbm, ⟨3, _⟩ => ⟨S4096x4096, .f32⟩
  | .hbm, ⟨4, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]

class Facts₀ : Prop where
  dot_S4096x16_S16x4096_S4096x4096_1_0_0_1_n_n_wf : DotDims.WF S4096x16 S16x4096 S4096x4096 [1] [0] [0] [1] [] []
  dot_S4x2048x4096_S4096x4096_S4x2048x4096_2_1_01_0_n_n_wf : DotDims.WF S4x2048x4096 S4096x4096 S4x2048x4096 [2] [1] [0, 1] [0] [] []

variable [Facts₀]

def dot_S4096x16_S16x4096_S4096x4096_1_0_0_1_n_n : DotDims S4096x16 S16x4096 S4096x4096 where
  lhsContracting := [1]
  rhsContracting := [0]
  lhsNonContracting := [0]
  rhsNonContracting := [1]
  lhsBatch := []
  rhsBatch := []
  wf := dot_S4096x16_S16x4096_S4096x4096_1_0_0_1_n_n_wf
def dot_S4x2048x4096_S4096x4096_S4x2048x4096_2_1_01_0_n_n : DotDims S4x2048x4096 S4096x4096 S4x2048x4096 where
  lhsContracting := [2]
  rhsContracting := [1]
  lhsNonContracting := [0, 1]
  rhsNonContracting := [0]
  lhsBatch := []
  rhsBatch := []
  wf := dot_S4x2048x4096_S4096x4096_S4x2048x4096_2_1_01_0_n_n_wf

class Facts : Prop extends Facts₀ where

variable [Facts]
-- ==== Proof.FiniteInputs.lean ====
/-
  From the precondition to real entries.  The precondition is the conjunction of three statements of one form, one per
  argument array: every entry's absolute value is below +∞.  An extended real whose absolute value max(x, −x) is below
  +∞ is neither infinity, so it is a real number.  Each "for every entry" is a reduction by "and" over all axes into
  one word, which is 1 only if every word reduced is 1.
-/
import proofs.«153565_j45337674777150_2_alg».proof.Pre_finite_inputs
import Idealize.ShloMosaic.Lib.ReduceAll
import Idealize.ShloMosaic.Lib.Affine
import Idealize.ShloMosaic.Lib.ValueIdx
import Idealize.ShloMosaic.PureOps.Ideal

noncomputable section

namespace Cert.FiniteInputs

open Idealize.ShloMosaic Cert.Pre_finite_inputs

/-- The word 0x7F800000 denotes +∞. -/
theorem inf_word : Ideal.ofBits .f32 0x7F800000#32 = (⊤ : EReal) := by
  simp [Ideal.ofBits, Ideal.ieee]

/-- An extended real whose absolute value is strictly below +∞ is a real number. -/
theorem real_of_abs_lt_inf (x : EReal)
    (h : Ideal.cmp .olt (max x (-x)) (Ideal.ofBits .f32 0x7F800000#32) = 1#1) : ∃ v : ℝ, x = v := by
  rw [inf_word] at h
  induction x using EReal.rec with
  | bot => simp [Ideal.cmp] at h
  | coe v => exact ⟨v, rfl⟩
  | top => simp [Ideal.cmp] at h

/-- The scalar shape has one index. -/
instance : Subsingleton S_.Idx := ⟨fun _ _ => funext fun d => d.elim0⟩

/-- Under the precondition every entry of each of the three argument arrays is a real number. -/
theorem reals_of_pre [Facts] (x : FVec Ideal S4x2048x4096 .f32) (a : FVec Ideal S16x4096 .f32)
    (b : FVec Ideal S4096x16 .f32) (h : fn (F := Ideal) x a b = fun _ => 1#1) :
    (∀ i, ∃ v : ℝ, x i = v) ∧ (∀ i, ∃ v : ℝ, a i = v) ∧ (∀ i, ∃ v : ℝ, b i = v) := by
  have h0 := congrFun h ValueIdx.ix0
  dsimp only [fn, andi] at h0
  obtain ⟨h01, hb⟩ := IntOp.andi_eq_one.1 h0
  obtain ⟨hx, ha⟩ := IntOp.andi_eq_one.1 h01
  exact ⟨fun i => real_of_abs_lt_inf _ (Host.reduce_andi_all _ _ _ _ _ hx i),
    fun i => real_of_abs_lt_inf _ (Host.reduce_andi_all _ _ _ _ _ ha i),
    fun i => real_of_abs_lt_inf _ (Host.reduce_andi_all _ _ _ _ _ hb i)⟩

end Cert.FiniteInputs

end
-- ==== Proof.LibRegroupLaw.lean ====
/-
  The law that joins the two programs.  One program contracts a row x with each of the R rows of a matrix a first and
  then contracts the R results with a row b; the other contracts b with the columns of a first and then contracts x
  with the result.  Both are the double sum of x i · a r i · b r over (r, i), grouped differently:

      Σ_r (Σ_i x i · a r i) · b r  =  Σ_i x i · (Σ_r b r · a r i).

  On the extended reals this needs every entry to be a real number: multiplication does not distribute over a sum
  that mixes the two infinities.  With real entries both sides are the coercion of the same real double sum, which is
  rearranged by distributivity and by exchanging the two finite sums.
-/
import Idealize.ShloMosaic.PureOps.Ideal

open scoped BigOperators

namespace Cert.LibRegroupLaw

/-- The coercion from the reals to the extended reals commutes with a finite sum. -/
theorem coe_sum {ι : Type} (s : Finset ι) (f : ι → ℝ) : ((∑ i ∈ s, f i : ℝ) : EReal) = ∑ i ∈ s, (f i : EReal) := by
  classical
  refine Finset.induction_on s (by simp) (fun a s ha ih => ?_)
  rw [Finset.sum_insert ha, Finset.sum_insert ha, EReal.coe_add, ih]

/-- Contracting x with the rows of a and then with b is contracting x with the b-combination of the rows of a, when
    every entry is a real number. -/
theorem regroup {I R : Type} [Fintype I] [Fintype R] (x : I → EReal) (a : R → I → EReal) (b : R → EReal)
    (hx : ∀ i, ∃ v : ℝ, x i = v) (ha : ∀ r i, ∃ v : ℝ, a r i = v) (hb : ∀ r, ∃ v : ℝ, b r = v) :
    ∑ r, (∑ i, x i * a r i) * b r = ∑ i, x i * ∑ r, b r * a r i := by
  choose xr hxr using hx
  choose ar har using ha
  choose br hbr using hb
  simp only [hxr, har, hbr, ← EReal.coe_mul, ← coe_sum]
  congr 1
  simp only [Finset.sum_mul, Finset.mul_sum]
  rw [Finset.sum_comm]
  exact Finset.sum_congr rfl fun i _ => Finset.sum_congr rfl fun r _ => by ring

end Cert.LibRegroupLaw
-- ==== Proof.LoraSpec.lean ====
/-
  The result of both programs as one function of the three argument arrays x : [4, 2048, 4096], a : [16, 4096] and
  b : [4096, 16], index by index, in two groupings of the same double sum.

  `viaWeight` forms the weight w(o, k) = Σ_r b(o, r) · a(r, k) first and contracts x's last axis with it:
      out(s, t, o) = Σ_k x(s, t, k) · (Σ_r b(o, r) · a(r, k)).
  `viaRank` goes down to the 16 rank coordinates first and back up:
      out(s, t, o) = Σ_r (Σ_k x(s, t, k) · a(r, k)) · b(o, r).
  The two agree when every entry is a real number (the regrouping law).
-/
import proofs.«153565_j45337674777150_2_alg».proof.Proof.LibRegroupLaw
import Idealize.ShloMosaic.Lib.ValueIdx

noncomputable section

open scoped BigOperators

namespace Cert.LoraSpec

open Idealize.ShloMosaic Idealize.ShloMosaic.ValueIdx

/-- The shape of x and of the result. -/
abbrev SX : Shape := ⟨3, ![4, 2048, 4096]⟩
/-- The shape of a: rank coordinate, input channel. -/
abbrev SA : Shape := ⟨2, ![16, 4096]⟩
/-- The shape of b: output channel, rank coordinate. -/
abbrev SB : Shape := ⟨2, ![4096, 16]⟩

/-- x contracted with the weight Σ_r b(o, r) · a(r, k). -/
def viaWeight (x : SX.Idx → EReal) (a : SA.Idx → EReal) (b : SB.Idx → EReal) : SX.Idx → EReal :=
  fun i => ∑ k : Fin 4096, x (ix3 (i 0) (i 1) k) * ∑ r : Fin 16, b (ix2 (i 2) r) * a (ix2 r k)

/-- x contracted with the rows of a, the 16 results contracted with a row of b. -/
def viaRank (x : SX.Idx → EReal) (a : SA.Idx → EReal) (b : SB.Idx → EReal) : SX.Idx → EReal :=
  fun i => ∑ r : Fin 16, (∑ k : Fin 4096, x (ix3 (i 0) (i 1) k) * a (ix2 r k)) * b (ix2 (i 2) r)

/-- With real entries the two groupings are one function. -/
theorem viaRank_eq_viaWeight (x : SX.Idx → EReal) (a : SA.Idx → EReal) (b : SB.Idx → EReal)
    (hx : ∀ i, ∃ v : ℝ, x i = v) (ha : ∀ i, ∃ v : ℝ, a i = v) (hb : ∀ i, ∃ v : ℝ, b i = v) :
    viaRank x a b = viaWeight x a b :=
  funext fun i => Cert.LibRegroupLaw.regroup (fun k : Fin 4096 => x (ix3 (i 0) (i 1) k))
    (fun (r : Fin 16) (k : Fin 4096) => a (ix2 r k)) (fun r : Fin 16 => b (ix2 (i 2) r))
    (fun _ => hx _) (fun _ _ => ha _) (fun _ => hb _)

end Cert.LoraSpec

end
-- ==== Proof.ReferenceSpec.lean ====
/-
  The reference computes the weight-first grouping.  Its first product is w = b · a, contracting b's axis 1 with a's
  axis 0; its second contracts x's axis 2 with w's axis 1, so the entry at (s, t, o) is Σ_k x(s, t, k) · w(o, k).
  Read at an index, one operation at a time, that is `viaWeight`.
-/
import proofs.«153565_j45337674777150_2_alg».proof.Proof.Gen.ReferenceIdeal.Read
import proofs.«153565_j45337674777150_2_alg».proof.Proof.LoraSpec

noncomputable section

open scoped BigOperators

namespace Cert.ReferenceIdeal.RefValue

open Cert.ReferenceIdeal Cert.ReferenceIdeal.Gen Idealize.ShloMosaic Idealize.ShloMosaic.ValueIdx

/-- The second product reads x at (s, t, k). -/
theorem lidx1_eq (i : S4x2048x4096.Idx) (k : Fin 4096) : Read.lidx_main_v1 i k = ix3 (i 0) (i 1) k :=
  funext fun c => Fin.ext (by match c with | ⟨0, _⟩ => rfl | ⟨1, _⟩ => rfl | ⟨2, _⟩ => rfl)
/-- It reads the weight at (o, k), and the weight's entry there reads b at (o, r) … -/
theorem bidx_eq (i : S4x2048x4096.Idx) (k : Fin 4096) (r : Fin 16) :
    Read.lidx_main_v0 (Read.ridx_main_v1 i k) r = ix2 (i 2) r :=
  funext fun c => Fin.ext (by match c with | ⟨0, _⟩ => rfl | ⟨1, _⟩ => rfl)
/-- … and a at (r, k). -/
theorem aidx_eq (i : S4x2048x4096.Idx) (k : Fin 4096) (r : Fin 16) :
    Read.ridx_main_v0 (Read.ridx_main_v1 i k) r = ix2 r k :=
  funext fun c => Fin.ext (by match c with | ⟨0, _⟩ => rfl | ⟨1, _⟩ => rfl)

/-- The reference's result is the weight-first grouping of its arguments. -/
theorem result_eq (x : (⟨S4x2048x4096, .f32⟩ : BufTy).Contents (Elt Ideal)) (a : (⟨S16x4096, .f32⟩ : BufTy).Contents (Elt Ideal))
    (b : (⟨S4096x16, .f32⟩ : BufTy).Contents (Elt Ideal)) :
    Read.val_main_v1 (F := Ideal) x a b = Cert.LoraSpec.viaWeight x a b := by
  funext i
  rw [Read.val_main_v1_apply]
  unfold Cert.LoraSpec.viaWeight
  refine Finset.sum_congr rfl fun k _ => ?_
  rw [Read.val_main_v0_apply]
  refine congrArg₂ (· * ·) (congrArg x (lidx1_eq i k)) (Finset.sum_congr rfl fun r _ => ?_)
  exact congrArg₂ (· * ·) (congrArg b (bidx_eq i k r)) (congrArg a (aidx_eq i k r))

end Cert.ReferenceIdeal.RefValue

end
-- ==== Proof.KernelPayload.lean ====
/-
  The kernel body's arithmetic at an index.  From a block X of 256 rows of x, all of a and all of b, the body forms
  the down-projection D(p, r) = Σ_k X(p, k) · a(r, k) (a product contracting axis 1 of both operands, into a zero
  accumulator) and then the up-projection U(p, o) = Σ_r D(p, r) · b(o, r) (again axis 1 with axis 1).  The changes of
  float format in between are the identity on the extended reals, and the shape casts are to the operand's own
  shape.  So the value stored at (p, o) is Σ_r (Σ_k X(p, k) · a(r, k)) · b(o, r).
-/
import proofs.«153565_j45337674777150_2_alg».proof.Proof.Gen.KernelIdeal.Skeleton
import Idealize.ShloMosaic.Lib.Pipeline.Value
import Idealize.ShloMosaic.Lib.ValueIdx
import Idealize.ShloMosaic.PureOps.Ideal.Laws

noncomputable section

open scoped BigOperators

namespace Cert.KernelIdeal.Payload

open Cert.KernelIdeal Cert.KernelIdeal.Gen Idealize.ShloMosaic Idealize.ShloMosaic.ValueIdx

/-! ## The down-projection's operand indices -/

/-- The down-projection's dimension numbers: [256, 4096] × [16, 4096] → [256, 16], contracting axis 1 with axis 1. -/
local notation "dDown" => dot_S256x4096_S16x4096_S256x16_1_1_0_0_n_n
/-- The up-projection's: [256, 16] × [4096, 16] → [256, 4096], contracting axis 1 with axis 1. -/
local notation "dUp" => dot_S256x16_S4096x16_S256x4096_1_1_0_0_n_n

theorem down_lhs_0 (j : S256x16.Idx) (q : (dDown).contr.Idx) : ((dDown).lhsIdx j q 0).val = (j 0).val := by
  unfold DotDims.lhsIdx
  rw [dif_neg (show ¬(0 : Fin S256x4096.rank) ∈ (dDown).lhsBatch by decide), dif_pos (show (0 : Fin S256x4096.rank) ∈ (dDown).lhsNonContracting by decide)]
  rfl
theorem down_lhs_1 (j : S256x16.Idx) (q : (dDown).contr.Idx) : ((dDown).lhsIdx j q 1).val = (q ⟨0, by decide⟩).val :=
  (dDown).lhsIdx_val_of_single rfl j q
theorem down_rhs_0 (j : S256x16.Idx) (q : (dDown).contr.Idx) : ((dDown).rhsIdx j q 0).val = (j 1).val := by
  unfold DotDims.rhsIdx
  rw [dif_neg (show ¬(0 : Fin S16x4096.rank) ∈ (dDown).rhsBatch by decide), dif_pos (show (0 : Fin S16x4096.rank) ∈ (dDown).rhsNonContracting by decide)]
  rfl
theorem down_rhs_1 (j : S256x16.Idx) (q : (dDown).contr.Idx) : ((dDown).rhsIdx j q 1).val = (q ⟨0, by decide⟩).val :=
  (dDown).rhsIdx_val_of_single rfl j q

/-- The down-projection at (p, r): the sum over the 4096 input channels of X(p, k) · a(r, k). -/
theorem down_apply (X : FVec Ideal S256x4096 .bf16) (a : FVec Ideal S16x4096 .bf16) (p : Fin 256) (r : Fin 16) :
    FloatOps.matmul dDown none X a (constant S256x16 .f32 0x00000000#32) (ix2 p r)
      = ∑ k : Fin 4096, X (ix2 p k) * a (ix2 r k) := by
  rw [Ideal.matmul_constant_zero_apply, ← Equiv.sum_comp (contrEquiv1 dDown 4096 rfl rfl).symm]
  refine Finset.sum_congr rfl fun k _ => ?_
  have hk := contrEquiv1_symm_val dDown 4096 rfl rfl k
  have el : (dDown).lhsIdx (ix2 p r) ((contrEquiv1 dDown 4096 rfl rfl).symm k) = ix2 p k := funext fun c => Fin.ext (by
    match c with
    | ⟨0, _⟩ => exact down_lhs_0 _ _
    | ⟨1, _⟩ => exact (down_lhs_1 _ _).trans hk)
  have er : (dDown).rhsIdx (ix2 p r) ((contrEquiv1 dDown 4096 rfl rfl).symm k) = ix2 r k := funext fun c => Fin.ext (by
    match c with
    | ⟨0, _⟩ => exact down_rhs_0 _ _
    | ⟨1, _⟩ => exact (down_rhs_1 _ _).trans hk)
  rw [el, er]

/-! ## The up-projection's operand indices -/

theorem up_lhs_0 (j : S256x4096.Idx) (q : (dUp).contr.Idx) : ((dUp).lhsIdx j q 0).val = (j 0).val := by
  unfold DotDims.lhsIdx
  rw [dif_neg (show ¬(0 : Fin S256x16.rank) ∈ (dUp).lhsBatch by decide), dif_pos (show (0 : Fin S256x16.rank) ∈ (dUp).lhsNonContracting by decide)]
  rfl
theorem up_lhs_1 (j : S256x4096.Idx) (q : (dUp).contr.Idx) : ((dUp).lhsIdx j q 1).val = (q ⟨0, by decide⟩).val :=
  (dUp).lhsIdx_val_of_single rfl j q
theorem up_rhs_0 (j : S256x4096.Idx) (q : (dUp).contr.Idx) : ((dUp).rhsIdx j q 0).val = (j 1).val := by
  unfold DotDims.rhsIdx
  rw [dif_neg (show ¬(0 : Fin S4096x16.rank) ∈ (dUp).rhsBatch by decide), dif_pos (show (0 : Fin S4096x16.rank) ∈ (dUp).rhsNonContracting by decide)]
  rfl
theorem up_rhs_1 (j : S256x4096.Idx) (q : (dUp).contr.Idx) : ((dUp).rhsIdx j q 1).val = (q ⟨0, by decide⟩).val :=
  (dUp).rhsIdx_val_of_single rfl j q

/-- The up-projection at (p, o): the sum over the 16 rank coordinates of D(p, r) · b(o, r). -/
theorem up_apply (D : FVec Ideal S256x16 .bf16) (b : FVec Ideal S4096x16 .bf16) (p : Fin 256) (o : Fin 4096) :
    FloatOps.matmul dUp none D b (constant S256x4096 .f32 0x00000000#32) (ix2 p o)
      = ∑ r : Fin 16, D (ix2 p r) * b (ix2 o r) := by
  rw [Ideal.matmul_constant_zero_apply, ← Equiv.sum_comp (contrEquiv1 dUp 16 rfl rfl).symm]
  refine Finset.sum_congr rfl fun r _ => ?_
  have hr := contrEquiv1_symm_val dUp 16 rfl rfl r
  have el : (dUp).lhsIdx (ix2 p o) ((contrEquiv1 dUp 16 rfl rfl).symm r) = ix2 p r := funext fun c => Fin.ext (by
    match c with
    | ⟨0, _⟩ => exact up_lhs_0 _ _
    | ⟨1, _⟩ => exact (up_lhs_1 _ _).trans hr)
  have er : (dUp).rhsIdx (ix2 p o) ((contrEquiv1 dUp 16 rfl rfl).symm r) = ix2 o r := funext fun c => Fin.ext (by
    match c with
    | ⟨0, _⟩ => exact up_rhs_0 _ _
    | ⟨1, _⟩ => exact (up_rhs_1 _ _).trans hr)
  rw [el, er]

/-! ## The stored value -/

/-- What the body stores at (p, o), from its three loads: down to the rank coordinates, then back up. -/
theorem pay_apply (X : Vec Ideal S256x4096 .f32) (a : Vec Ideal S16x4096 .bf16) (b : Vec Ideal S4096x16 .bf16)
    (p : Fin 256) (o : Fin 4096) :
    k0_pay1 (F := Ideal) X a b (ix2 p o)
      = ∑ r : Fin 16, (∑ k : Fin 4096, X (ix2 p k) * a (ix2 r k)) * b (ix2 o r) := by
  unfold k0_pay1
  refine (up_apply _ _ p o).trans (Finset.sum_congr rfl fun r _ => ?_)
  refine congrArg₂ (· * ·) ((down_apply _ _ p r).trans (Finset.sum_congr rfl fun k _ => ?_)) ?_
  · exact congrArg₂ (· * ·) (congrFun (shapeCast_self X _) _) (congrFun (shapeCast_self a _) _)
  · exact congrFun (shapeCast_self b _) _

end Cert.KernelIdeal.Payload

end
-- ==== Proof.RowsLayout.lean ====
/-
  The kernel works on x with its two leading axes merged: row n = 2048 · s + t of the [8192, 4096] array is
  x(s, t, ·), and it reshapes its [8192, 4096] result back to [4, 2048, 4096].  `rows2d` is the rank-first grouping
  on the merged rows,
      rows2d(n, o) = Σ_r (Σ_k X(n, k) · a(r, k)) · b(o, r).
  A reshape keeps each element's row-major position, and (2048 · s + t) · 4096 + o is the position of (s, t, o) in
  the one array and of (2048 · s + t, o) in the other, so reshaping x, applying `rows2d` and reshaping back is
  `viaRank`.
-/
import proofs.«153565_j45337674777150_2_alg».proof.Proof.LoraSpec
import Idealize.ShloMosaic.Lib.Pipeline.Value

noncomputable section

open scoped BigOperators

namespace Cert.LoraSpec

open Idealize.ShloMosaic Idealize.ShloMosaic.ValueIdx

/-- The shape of x with its two leading axes merged, and of the kernel's result before it is reshaped back. -/
abbrev SM : Shape := ⟨2, ![8192, 4096]⟩

/-- The rank-first grouping on the merged rows. -/
def rows2d (X : SM.Idx → EReal) (a : SA.Idx → EReal) (b : SB.Idx → EReal) : SM.Idx → EReal :=
  fun j => ∑ r : Fin 16, (∑ k : Fin 4096, X (ix2 (j 0) k) * a (ix2 r k)) * b (ix2 (j 1) r)

/-- Merging x's leading axes, applying `rows2d` and splitting the leading axis again is `viaRank`. -/
theorem reshape_rows2d (x : SX.Idx → EReal) (a : SA.Idx → EReal) (b : SB.Idx → EReal)
    (h1 : SX.ShapeCasts SM) (h2 : SM.ShapeCasts SX) :
    shapeCast SX (rows2d (shapeCast SM x h1) a b) h2 = viaRank x a b := by
  funext i
  have hi0 : (i 0).val < 4 := (i 0).isLt
  have hi1 : (i 1).val < 2048 := (i 1).isLt
  refine (shapeCast_apply _ h2 i (ix2 (⟨(i 0).val * 2048 + (i 1).val, by omega⟩ : Fin 8192) (i 2)) ?_).trans ?_
  · rw [Shape.rowMajor_val_two, Shape.rowMajor_val_three]
    rfl
  · unfold rows2d viaRank
    refine Finset.sum_congr rfl fun r _ => congrArg₂ (· * ·) (Finset.sum_congr rfl fun k _ => congrArg₂ (· * ·) ?_ rfl) rfl
    refine shapeCast_apply x h1 _ (ix3 (i 0) (i 1) k) ?_
    rw [Shape.rowMajor_val_three, Shape.rowMajor_val_two]
    rfl

end Cert.LoraSpec

end
-- ==== Proof.KernelValue.lean ====
/-
  What the kernel's program computes, as one function of its argument arrays.

  The region runs on 32 grid points.  Point t fetches rows 256·t … 256·t + 255 of the merged x (window 0), all of a and
  all of b (windows 1 and 2, whose block index is 0 at every point), and writes back rows 256·t … 256·t + 255 of the
  result (window 3).  What it stores at row p, column o of its block is Σ_r (Σ_k X(p, k) · a(r, k)) · b(o, r) of the
  fetched blocks, so every point writes a block of ONE function of the arrays as the region finds them: the rank-first
  grouping on the merged rows.  The 32 blocks tile the 8192 rows (row n is in the block of point n / 256), so after the
  region the result array is that function.  Before the region the host merges x's leading axes and changes a's and b's
  float format (the identity on the extended reals); after it the host splits the result's leading axis again.
-/
import proofs.«153565_j45337674777150_2_alg».proof.Proof.Gen.KernelIdeal.Frame
import proofs.«153565_j45337674777150_2_alg».proof.Proof.KernelPayload
import proofs.«153565_j45337674777150_2_alg».proof.Proof.RowsLayout
import Idealize.ShloMosaic.Lib.Pipeline.Value
import Idealize.ShloMosaic.Lib.StableHlo.Run

noncomputable section

open scoped BigOperators

namespace Cert.KernelIdeal.KValue

open Cert.KernelIdeal Cert.KernelIdeal.Gen Idealize.ShloMosaic Idealize.ShloMosaic.TcCoe Idealize.SL.Sem
open Idealize.ShloMosaic.ValueIdx
open Idealize.ShloMosaic.Pipeline (Dat)
open Cert.LoraSpec (rows2d)

variable (m : (ℓ : Loc nD τ sig) → Buf (Elt Ideal) ℓ) (ρ : Dev nD → PrngReg)

theorem hz : (![0, 0] : Fin 2 → Nat) = fun _ => 0 := funext fun a => by fin_cases a <;> rfl

/-! ## The block indices over the grid -/

/-- Windows 0 and 3 are at block row t at point t; windows 1 and 2 stay at block (0, 0). -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-! ## The input blocks -/

/-- Row p of window 0's block at point t is row 256·t + p of the merged x. -/
theorem xblk_apply (c : Dev nD) (t : Fin cfg0.N) (y : S256x4096.Idx) (k : S8192x4096.Idx)
    (hk0 : (k 0).val = 256 * t.val + (y 0).val) (hk1 : (k 1).val = (y 1).val) :
    (iblk m c 0 t : Vec Ideal S256x4096 .f32) y = (V m c main_v0 : Vec Ideal S8192x4096 .f32) k := by
  obtain ⟨e0, e1, -⟩ := idx_facts t
  unfold iblk
  rw [View.read_apply]
  show V m c main_v0 _ = V m c main_v0 k
  refine congrArg (V m c main_v0) (funext fun a => Fin.ext ?_)
  match a with
  | ⟨0, _⟩ => show win0_0.index t (0 : Fin 2) * 256 + 1 * (y 0).val = (k 0).val; rw [e0, hk0]; omega
  | ⟨1, _⟩ => show win0_0.index t (1 : Fin 2) * 4096 + 1 * (y 1).val = (k 1).val; rw [e1, hk1]; omega

/-- Window 1's block is all of a, at every point. -/
theorem ablk_eq (c : Dev nD) (t : Fin cfg0.N) :
    (iblk m c 1 t : Vec Ideal S16x4096 .bf16) = (V m c main_v1 : Vec Ideal S16x4096 .bf16) := by
  obtain ⟨-, -, e0, e1, -⟩ := idx_facts t
  funext y
  unfold iblk
  rw [View.read_apply]
  show V m c main_v1 _ = V m c main_v1 y
  refine congrArg (V m c main_v1) (funext fun a => Fin.ext ?_)
  match a with
  | ⟨0, _⟩ => show win0_1.index t (0 : Fin 2) * 16 + 1 * (y 0).val = (y 0).val; rw [e0]; omega
  | ⟨1, _⟩ => show win0_1.index t (1 : Fin 2) * 4096 + 1 * (y 1).val = (y 1).val; rw [e1]; omega

/-- Window 2's block is all of b, at every point. -/
theorem bblk_eq (c : Dev nD) (t : Fin cfg0.N) :
    (iblk m c 2 t : Vec Ideal S4096x16 .bf16) = (V m c main_v2 : Vec Ideal S4096x16 .bf16) := by
  obtain ⟨-, -, -, -, e0, e1, -⟩ := idx_facts t
  funext y
  unfold iblk
  rw [View.read_apply]
  show V m c main_v2 _ = V m c main_v2 y
  refine congrArg (V m c main_v2) (funext fun a => Fin.ext ?_)
  match a with
  | ⟨0, _⟩ => show win0_2.index t (0 : Fin 2) * 4096 + 1 * (y 0).val = (y 0).val; rw [e0]; omega
  | ⟨1, _⟩ => show win0_2.index t (1 : Fin 2) * 16 + 1 * (y 1).val = (y 1).val; rw [e1]; omega

/-! ## What a point stores, as the whole-array function at the stored element's place -/

/-- If row y₀ of the block X is row i₀ of the array A0, and the columns agree, the body's stored value at y is
    `rows2d` of A0 at i. -/
theorem point_eq (X : Vec Ideal S256x4096 .f32) (a : Vec Ideal S16x4096 .bf16) (b : Vec Ideal S4096x16 .bf16)
    (A0 : Vec Ideal S8192x4096 .f32) (y : S256x4096.Idx) (i : S8192x4096.Idx)
    (hX : ∀ k : Fin 4096, X (ix2 (y 0) k) = A0 (ix2 (i 0) k)) (hi1 : (i 1).val = (y 1).val) :
    k0_pay1 (F := Ideal) X a b y = rows2d A0 a b i := by
  refine (congrArg (k0_pay1 (F := Ideal) X a b) (eq_ix2 y)).trans ((Payload.pay_apply X a b (y 0) (y 1)).trans ?_)
  unfold rows2d
  refine Finset.sum_congr rfl fun r _ => congrArg₂ (· * ·) (Finset.sum_congr rfl fun k _ => congrArg (· * a (ix2 r k)) (hX k)) ?_
  exact congrArg b (funext fun d => Fin.ext (by match d with | ⟨0, _⟩ => exact hi1.symm | ⟨1, _⟩ => rfl))

/-- WHAT POINT t WRITES BACK is block t of `rows2d` of the arrays as the region finds them. -/
theorem flushed_eq (c : Dev nD) (t : Fin cfg0.N) :
    (dats m 0 c).flushed 3 t
      = ((cfg0.win 3).blk t).view.read (Elt Ideal) (rows2d (V m c main_v0) (V m c main_v1) (V m c main_v2)) := by
  show (cfg0.win 3).cut (grid0.coords t) ((dats m 0 c).after 3 t) = _
  rw [after0_3]
  unfold out0_3
  rw [View.canon_unit_zero hz]
  simp only [View.ld_unit_zero (S := S256x4096) hz, View.ld_unit_zero (S := S16x4096) hz, View.ld_unit_zero (S := S4096x16) hz]
  rw [ablk_eq, bblk_eq]
  obtain ⟨-, -, -, -, -, -, e0, e1⟩ := idx_facts t
  funext j
  show k0_pay1 (F := Ideal) (iblk m c 0 t) (V m c main_v1) (V m c main_v2) j
    = rows2d (V m c main_v0) (V m c main_v1) (V m c main_v2) (((cfg0.win 3).blk t).view.emb j)
  have hj0 : (j 0).val < 256 := (j 0).isLt
  have hr0 : ((((cfg0.win 3).blk t).view.emb j) 0).val = win0_3.index t (0 : Fin 2) * 256 + 1 * (j 0).val := rfl
  have hr1 : ((((cfg0.win 3).blk t).view.emb j) 1).val = win0_3.index t (1 : Fin 2) * 4096 + 1 * (j 1).val := rfl
  refine point_eq _ _ _ _ j _ (fun k => xblk_apply m c t _ _ ?_ rfl) ?_
  · show ((((cfg0.win 3).blk t).view.emb j) 0).val = 256 * t.val + (j 0).val
    rw [hr0, e0]; omega
  · rw [hr1, e1]; omega

/-! ## The cover, and the array after the region -/

/-- An index of the result array is in point t's block iff each coordinate is in the block's range on its axis. -/
theorem mem_blk (t : Fin cfg0.N) (i : S8192x4096.Idx) :
    i ∈ ((cfg0.win 3).blk t).view.set ↔ ∀ a : Fin 2, win0_3.index t a * S256x4096.size a ≤ (i a).val ∧ (i a).val < win0_3.index t a * S256x4096.size a + S256x4096.size a := by
  show i ∈ ((View.whole main_v3).slice (win0_3.rect t)).set ↔ _
  rw [View.set_slice_whole, Rect.mem_set_unit]
  exact Iff.rfl

/-- Row n of the result is in the block of point n / 256, which is written back. -/
theorem cover (i : S8192x4096.Idx) :
    ∃ t : Fin cfg0.N, (cfg0.win 3).flush t = true ∧ i ∈ ((cfg0.win 3).blk t).view.set := by
  have hi0 : (i 0).val < 8192 := (i 0).isLt
  have hi1 : (i 1).val < 4096 := (i 1).isLt
  obtain ⟨t, ht⟩ : ∃ t : Fin cfg0.N, t.val = (i 0).val / 256 :=
    ⟨⟨(i 0).val / 256, by have hN : grid0.N = 32 := N_0; show (i 0).val / 256 < grid0.N; omega⟩, rfl⟩
  obtain ⟨-, -, -, -, -, -, e0, e1⟩ := idx_facts t
  refine ⟨t, flush0_3 t, ?_⟩
  rw [mem_blk]
  intro a
  match a with
  | ⟨0, _⟩ =>
    show win0_3.index t (0 : Fin 2) * 256 ≤ (i 0).val ∧ (i 0).val < win0_3.index t (0 : Fin 2) * 256 + 256
    rw [e0, ht]; omega
  | ⟨1, _⟩ =>
    show win0_3.index t (1 : Fin 2) * 4096 ≤ (i 1).val ∧ (i 1).val < win0_3.index t (1 : Fin 2) * 4096 + 4096
    rw [e1]; omega

/-- THE RESULT ARRAY after the region is `rows2d` of the arrays as the region finds them. -/
theorem final (c : Dev nD) :
    (dats m 0 c).arrAt 3 cfg0.N = rows2d (V m c main_v0) (V m c main_v1) (V m c main_v2) :=
  (dats m 0 c).arrAt_eq_of_cover 3 _ (fun t _ => flushed_eq m c t) cover

end Cert.KernelIdeal.KValue

end
-- ==== Proof.KernelRun.lean ====
/-
  The kernel's program end to end.  Before the region the host merges x's two leading axes (a reshape) and changes a's and
  b's float format (the identity on the extended reals); the region leaves the rank-first grouping on the merged rows in
  its result array; after it the host splits the leading axis again (a reshape).  Together: the program's result is
  `viaRank` of its three arguments, and the arguments are unchanged.
-/
import proofs.«153565_j45337674777150_2_alg».proof.Proof.KernelValue

noncomputable section

namespace Cert.KernelIdeal.KValue

open Cert.KernelIdeal Cert.KernelIdeal.Gen Idealize.ShloMosaic Idealize.ShloMosaic.TcCoe Idealize.SL.Sem
open Idealize.ShloMosaic.ValueIdx
open Idealize.ShloMosaic.Pipeline (Dat)
open Cert.LoraSpec (rows2d viaRank)

variable (m : (ℓ : Loc nD τ sig) → Buf (Elt Ideal) ℓ) (ρ : Dev nD → PrngReg)

/-! ## The arrays as the region finds them -/

/-- Window 0's array is x with its two leading axes merged. -/
theorem V_v0 (c : Dev nD) : (V m c main_v0 : Vec Ideal S8192x4096 .f32)
    = shapeCast S8192x4096 (m ((c : Thread nD τ).loc main_arg0) : Vec Ideal S4x2048x4096 .f32) shapeCasts_S4x2048x4096_S8192x4096 := by
  show StableHlo.after hostOps0 (fun b => m (c, b)) (Proc.devRef .tc main_v0) = _
  after_results
  rfl

/-- Window 1's array is a in the narrower float format. -/
theorem V_v1 (c : Dev nD) : @Eq (FVec Ideal S16x4096 .bf16) (V m c main_v1)
    (truncf .bf16 (m ((c : Thread nD τ).loc main_arg1) : FVec Ideal S16x4096 .f32) bitsLt_bf16_f32) := by
  show StableHlo.after hostOps0 (fun b => m (c, b)) (Proc.devRef .tc main_v1) = _
  after_results

/-- Window 2's array is b in the narrower float format. -/
theorem V_v2 (c : Dev nD) : @Eq (FVec Ideal S4096x16 .bf16) (V m c main_v2)
    (truncf .bf16 (m ((c : Thread nD τ).loc main_arg2) : FVec Ideal S4096x16 .f32) bitsLt_bf16_f32) := by
  show StableHlo.after hostOps0 (fun b => m (c, b)) (Proc.devRef .tc main_v2) = _
  after_results

/-! ## The host operation after the region -/

/-- The program's result is the region's result array with its leading axis split. -/
theorem tail_eq (c : Dev nD) : Pipeline.afterTail₀ cfgs (dats m) 0 (V0 m) [hostOps1] c main_v4
    = shapeCast S4x2048x4096 ((dats m 0 c).arrAt 3 cfg0.N) shapeCasts_S8192x4096_S4x2048x4096 := by
  unfold Pipeline.afterTail₀
  show StableHlo.after hostOps1 _ (Proc.devRef .tc main_v4) = _
  after_results
  have e := Pipeline.withArrays_arr spec0 launch0.win.arr_inj c (V0 m c) (fun w => (dats m 0 c).arrAt w cfg0.N) 3
  funext i
  show shapeCast S4x2048x4096 (Pipeline.withArrays spec0 c (V0 m c) (fun w => (dats m 0 c).arrAt w cfg0.N)
    (Proc.devRef .tc (Pipeline.arrRef spec0 3))) shapeCasts_S8192x4096_S4x2048x4096 i = _
  rw [e]

/-- THE PROGRAM'S RESULT: the rank-first grouping of the three arguments. -/
theorem result_eq (c : Dev nD) : Pipeline.afterTail₀ cfgs (dats m) 0 (V0 m) [hostOps1] c main_v4
    = viaRank (m ((c : Thread nD τ).loc main_arg0)) (m ((c : Thread nD τ).loc main_arg1)) (m ((c : Thread nD τ).loc main_arg2)) := by
  rw [tail_eq, final, V_v0, V_v1, V_v2]
  exact Cert.LoraSpec.reshape_rows2d _ _ _ _ _

/-! ## The run -/

/-- Every weakly fair execution of the program terminates with the result at `viaRank` of the arguments and the
    arguments unchanged. -/
theorem run : θ_run defs (onTc (τ := τ) (main (F := Ideal))) ⟨m, fun _ => 0, ρ⟩ fun r => ∀ c : Dev nD,
      r.2.mem ((c.tc : Thread nD τ).loc main_v4)
        = viaRank (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v4 (Pipeline.mem_restRefs_of main_v4 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.KValue

end
-- ==== Proof.lean ====
/-
  A rank-16 adapter applied to x : [4, 2048, 4096]:  out(s, t, o) = Σ_k x(s, t, k) · w(o, k)  with  w = b · a,
  a : [16, 4096], b : [4096, 16].

  The reference forms the 4096 × 4096 weight w(o, k) = Σ_r b(o, r) · a(r, k) and contracts x's last axis with it.  The
  kernel never forms w: on blocks of 256 merged rows of x it goes down to the 16 rank coordinates,
  D(n, r) = Σ_k x(n, k) · a(r, k), and back up, out(n, o) = Σ_r D(n, r) · b(o, r).  On the extended reals the changes
  of float format in the kernel are the identity, both matrix units' products into a zero accumulator are plain sums
  of products, and so the two programs compute the two groupings of one double sum over (r, k).  The groupings agree
  when every entry is a real number (distributivity and exchanging two finite sums; false with infinities among the
  entries), which is what the precondition gives.

  The pieces: the regrouping law (LibRegroupLaw), real entries from the precondition (FiniteInputs), the two groupings
  as functions of the arguments (LoraSpec, RowsLayout), the reference's two products read at an index
  (ReferenceSpec), the kernel body's stored value at an index (KernelPayload), the kernel's result array from its
  32 blocks and the host reshapes around the region (KernelValue, KernelRun).  The three frames are the generated
  frame runs (the reference's is its generated run with the result dropped); the kernel's idealization rewrote
  nothing, so there is nothing to preserve.
-/
import proofs.«153565_j45337674777150_2_alg».proof.Defs
import proofs.«153565_j45337674777150_2_alg».proof.Proof.Gen.Kernel
import proofs.«153565_j45337674777150_2_alg».proof.Proof.Gen.Kernel.Skeleton
import proofs.«153565_j45337674777150_2_alg».proof.Proof.Gen.Kernel.Launch
import proofs.«153565_j45337674777150_2_alg».proof.Proof.Gen.Kernel.Points
import proofs.«153565_j45337674777150_2_alg».proof.Proof.Gen.Kernel.Frame
import proofs.«153565_j45337674777150_2_alg».proof.Proof.Gen.KernelIdeal
import proofs.«153565_j45337674777150_2_alg».proof.Proof.Gen.KernelIdeal.Skeleton
import proofs.«153565_j45337674777150_2_alg».proof.Proof.Gen.KernelIdeal.Launch
import proofs.«153565_j45337674777150_2_alg».proof.Proof.Gen.KernelIdeal.Points
import proofs.«153565_j45337674777150_2_alg».proof.Proof.Gen.KernelIdeal.Frame
import proofs.«153565_j45337674777150_2_alg».proof.Proof.Gen.ReferenceIdeal
import proofs.«153565_j45337674777150_2_alg».proof.Proof.Gen.Pre_finite_inputs
import proofs.«153565_j45337674777150_2_alg».proof.Proof.Gen.ReferenceIdeal.Run
import proofs.«153565_j45337674777150_2_alg».proof.Proof.Gen.ReferenceIdeal.Read
import proofs.«153565_j45337674777150_2_alg».proof.Proof.FiniteInputs
import proofs.«153565_j45337674777150_2_alg».proof.Proof.ReferenceSpec
import proofs.«153565_j45337674777150_2_alg».proof.Proof.KernelRun
import Idealize.ShloMosaic.Adequacy
import Idealize.ShloMosaic.Init

noncomputable section

namespace Cert.Proof

open Idealize.ShloMosaic Idealize.SL.Sem

/-- The word-level kernel runs and leaves its arguments unchanged. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference's run, its result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the arguments both programs end with the weight-first grouping of the arguments:
    the reference computes it as written; the kernel computes the rank-first grouping, which is the same function
    because under the precondition every entry is a real number. -/
theorem algebraic : Cert.algebraic_KernelIdeal_ReferenceIdeal := by
  intro m ρ m' ρ' hpre hagree
  refine ⟨fun c => Cert.LoraSpec.viaWeight
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)), ?_, ?_⟩
  · refine (θ_run Cert.KernelIdeal.defs _ _).mono (fun _ h c => ⟨(h c).1.trans ?_, (h c).2⟩)
      (Cert.KernelIdeal.KValue.run m ρ)
    obtain ⟨hx, ha, hb⟩ := Cert.FiniteInputs.reals_of_pre _ _ _ (hpre c)
    exact Cert.LoraSpec.viaRank_eq_viaWeight _ _ _ hx ha hb
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v1_eq, Cert.ReferenceIdeal.RefValue.result_eq,
      (hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
